-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x64 : Shape := ⟨2, ![1024, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S4096x1024 .f32) (main_arg1 : FVec F S1024x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S4096x1024 : Shape := ⟨2, ![4096, 1024]⟩
abbrev S1024x64 : Shape := ⟨2, ![1024, 64]⟩
abbrev S4096 : Shape := ⟨1, ![4096]⟩
abbrev S512x1024 : Shape := ⟨2, ![512, 1024]⟩
abbrev S512 : Shape := ⟨1, ![512]⟩
abbrev S512x64 : Shape := ⟨2, ![512, 64]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x64, .f32⟩
  | .hbm, ⟨2, _⟩ => ⟨S4096, .f32⟩
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S512, .f32⟩
  | .local _ .vmem, ⟨4, _⟩ => ⟨S512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x64_S1024x64_0_0 : ∀ a, (![0, 0] : Fin 2 → Nat) a + S1024x64.size a ≤ S1024x64.size a
  h_S1024x64 : 0 < S1024x64.numel
  reduces_S512x64_S512 : S512x64.Reduces [1] S512
  inb_S512_S512_0 : ∀ a, (![0] : Fin 1 → Nat) a + S512.size a ≤ S512.size a
  h_S512 : 0 < S512.numel
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x64 : Shape := ⟨2, ![1024, 64]⟩
abbrev S4096x64 : Shape := ⟨2, ![4096, 64]⟩
abbrev S_ : Shape := ⟨0, ![]⟩
abbrev S4096 : Shape := ⟨1, ![4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x64, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  reducesTo_S4096x64_S4096_d1 : S4096x64.ReducesTo [1] S4096
  h_S_ : 0 < S_.numel
  dot_S4096x1024_S1024x64_S4096x64_1_0_0_1_n_n_wf : DotDims.WF S4096x1024 S1024x64 S4096x64 [1] [0] [0] [1] [] []

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

class Facts : Prop extends Facts₀ where

variable [Facts]
-- ==== Proof.Fitness.lean ====
/-
  The quantity both programs compute, stated once over plain index types: for a matrix `X` of `P` rows of 1024
  entries and a weight matrix `W` of 1024 rows and 64 columns, row `r`'s total is

      rowTotal X W r = Σ_{j < 64} max (Σ_{k < 1024} X[r, k] · W[k, j]) 0

  on the extended reals: the row of the product `X · W`, each entry cut off below at zero, added up. The zero the
  entries are compared with is kept as the float word both programs write (the same word on both sides, never
  evaluated). A row's total depends on that row of `X` alone, so the totals of a block of rows of `X` are a block of
  the totals of `X` (`rowTotal_congr`).
-/
import Idealize.ShloMosaic.Lib.ValueIdx
import Idealize.ShloMosaic.PureOps.Ideal.Laws

noncomputable section

namespace Cert.Fitness

open Idealize.ShloMosaic Idealize.ShloMosaic.ValueIdx

/-- Row `r` of `X · W`, every entry cut off below at zero, summed over the 64 columns. -/
def rowTotal {P : Nat} (X : FVec Ideal ⟨2, ![P, 1024]⟩ .f32) (W : FVec Ideal ⟨2, ![1024, 64]⟩ .f32) (r : Fin P) : EReal :=
  ∑ j : Fin 64, max (∑ k : Fin 1024, X (ix2 r k) * W (ix2 k j)) (Ideal.ofBits .f32 0x00000000#32)

/-- The whole result: the vector of the 4096 rows' totals. -/
def totals (X : FVec Ideal ⟨2, ![4096, 1024]⟩ .f32) (W : FVec Ideal ⟨2, ![1024, 64]⟩ .f32) : FVec Ideal ⟨1, ![4096]⟩ .f32 :=
  fun i => rowTotal X W (i 0)

/-- A row's total reads only that row of the left matrix: two matrices (of any numbers of rows) that agree on a row,
    against the same weights, give that row the same total. -/
theorem rowTotal_congr {P Q : Nat} (X : FVec Ideal ⟨2, ![P, 1024]⟩ .f32) (Y : FVec Ideal ⟨2, ![Q, 1024]⟩ .f32)
    (W : FVec Ideal ⟨2, ![1024, 64]⟩ .f32) (r : Fin P) (s : Fin Q) (h : ∀ k : Fin 1024, X (ix2 r k) = Y (ix2 s k)) :
    rowTotal X W r = rowTotal Y W s := by
  unfold rowTotal
  refine Finset.sum_congr rfl fun j _ => ?_
  refine congrArg (max · _) ?_
  exact Finset.sum_congr rfl fun k _ => by rw [h k]

end Cert.Fitness

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«164292_g76295799046172_cont_9to1_m_440_2_alg».proof.Proof.LibDotIdx
import proofs.«164292_g76295799046172_cont_9to1_m_440_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.BodyRow.lean ====
/-
  The kernel body's arithmetic at one row of a block. The body loads a block `x` of 512 rows of the population
  matrix and the whole weight matrix `w`, forms `x · w` into a zero accumulator, cuts every entry off below at zero
  and adds each row up. Read at row `r`, the value it stores is `rowTotal x w r`: the product's entry `(r, j)` is the
  plain sum over the contracted coordinate (the zero accumulator adds nothing), the cut-off is entry by entry, and the
  row reduction from the neutral accumulator is the plain sum over the 64 columns.
-/
import proofs.«164292_g76295799046172_cont_9to1_m_440_2_alg».proof.Proof.Gen.KernelIdeal.Skeleton
import proofs.«164292_g76295799046172_cont_9to1_m_440_2_alg».proof.Proof.Fitness
import proofs.«164292_g76295799046172_cont_9to1_m_440_2_alg».proof.Proof.LibRowOps

noncomputable section

namespace Cert.Fitness

open Idealize.ShloMosaic Idealize.ShloMosaic.ValueIdx Cert.KernelIdeal Cert.KernelIdeal.Gen

/-- What the body stores, at row `r` of the block: that row's total. -/
theorem body_row (x : FVec Ideal S512x1024 .f32) (w : FVec Ideal S1024x64 .f32) (r : Fin 512) :
    k0_pay1 (F := Ideal) x w (ix1 r) = rowTotal x w r := by
  unfold k0_pay1 rowTotal
  refine (Cert.LibRowOps.rowSum_kernel_apply _ _ _ _ _ r).trans ?_
  refine Finset.sum_congr rfl fun j _ => ?_
  refine congrArg (max · _) ?_
  exact DotIdx.matmul_plain_zero_apply _ none x w r j

end Cert.Fitness

end
-- ==== Proof.KernelTotals.lean ====
/-
  The kernel's result array is the vector of row totals. The grid has 8 points; point `t` is handed rows
  `512 t … 512 t + 511` of the population matrix and the whole weight matrix, and writes back entries
  `512 t … 512 t + 511` of the result. What it writes is the body's value on those blocks, which at row `r` of the block
  is that row's total (`body_row`); a row's total reads only its own row, so this is entry `512 t + r` of the totals of
  the whole matrix: each point writes back a block of ONE function of the argument arrays. The 8 blocks tile the 4096
  entries (entry `i` lies in the block of point `i / 512`), so after the run the array holds that function.
-/
import proofs.«164292_g76295799046172_cont_9to1_m_440_2_alg».proof.Proof.Gen.KernelIdeal.Value
import proofs.«164292_g76295799046172_cont_9to1_m_440_2_alg».proof.Proof.BodyRow

noncomputable section

namespace Cert.Fitness

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offset1 : (![0] : Fin 1 → Nat) = fun _ => 0 := funext fun a => by fin_cases a; rfl
theorem offset2 : (![0, 0] : Fin 2 → Nat) = fun _ => 0 := funext fun a => by fin_cases a <;> rfl

/-- The index maps over the grid: point `t` takes block row `t` of the population matrix, the one block of the weight
    matrix, and block `t` of the result. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val :=
  (by decide +kernel : ∀ t : Fin grid0.N, _)

/-- Every one of the 8 result blocks is some point's. -/
theorem index_onto : ∀ q : Fin 8, ∃ t : Fin cfg0.N, win0_2.index t (0 : Fin 1) = q.val :=
  (by decide +kernel : ∀ q : Fin 8, ∃ t : Fin grid0.N, win0_2.index t (0 : Fin 1) = q.val)

/-- Point `t`'s block of the population matrix is its rows `512 t … 512 t + 511`: entry `p` of the block is entry `q` of
    the matrix when `q`'s row is `512 t` plus `p`'s and the columns agree. -/
theorem population_block (c : Dev nD) (t : Fin cfg0.N) (p : S512x1024.Idx) (q : S4096x1024.Idx)
    (h0 : (q 0).val = t.val * 512 + (p 0).val) (h1 : (q 1).val = (p 1).val) :
    (iblk m c 0 t : Vec Ideal S512x1024 .f32) p
      = (m ((c : Thread nD τ).loc main_arg0) : S4096x1024.Idx → Elt Ideal .f32) q := by
  obtain ⟨e0, e1, -, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * (p 0).val = (q 0).val; rw [e0, h0]; omega
  | ⟨1, _⟩ => show win0_0.index t 1 * 1024 + 1 * (p 1).val = (q 1).val; rw [e1, h1]; omega

/-- Every point's block of the weight matrix is the whole matrix. -/
theorem weight_block (c : Dev nD) (t : Fin cfg0.N) :
    (iblk m c 1 t : Vec Ideal S1024x64 .f32) = (m ((c : Thread nD τ).loc main_arg1) : S1024x64.Idx → Elt Ideal .f32) := by
  obtain ⟨-, -, e0, e1, -⟩ := index_facts t
  funext p
  unfold iblk
  rw [View.read_apply]
  show V m c main_arg1 _ = m (c.tc.loc main_arg1) _
  unfold V
  congr 1
  funext a
  apply Fin.ext
  match a with
  | ⟨0, _⟩ => show win0_1.index t 0 * 1024 + 1 * (p 0).val = (p 0).val; rw [e0]; omega
  | ⟨1, _⟩ => show win0_1.index t 1 * 64 + 1 * (p 1).val = (p 1).val; rw [e1]; omega

/-- The body's value on a block of rows, at entry `y`, is entry `i` of the totals of the whole matrix, when the block
    `x` is rows `512 b …` of the matrix `X` and `i = 512 b + y`: a row's total reads only that row. -/
theorem block_totals (X : FVec Ideal S4096x1024 .f32) (W : FVec Ideal S1024x64 .f32) (x : FVec Ideal S512x1024 .f32)
    (b : Nat) (y : S512.Idx) (i : S4096.Idx)
    (hx : ∀ (p : S512x1024.Idx) (q : S4096x1024.Idx), (q 0).val = b * 512 + (p 0).val → (q 1).val = (p 1).val → x p = X q)
    (hi : (i 0).val = b * 512 + (y 0).val) :
    k0_pay1 (F := Ideal) x W y = totals X W i := by
  unfold totals
  refine (congrArg (k0_pay1 (F := Ideal) x W) (eq_ix1 y)).trans ?_
  refine (body_row x W (y 0)).trans ?_
  refine rowTotal_congr x X W (y 0) (i 0) fun k => ?_
  exact hx (ix2 (y 0) k) (ix2 (i 0) k) hi rfl

/-- What point `t` writes back is block `t` of the totals of the argument arrays. -/
theorem flushed_totals (c : Dev nD) (t : Fin cfg0.N) :
    (dats m 0 c).flushed 2 t = ((cfg0.win 2).blk t).view.read (Elt Ideal)
      (totals (m ((c : Thread nD τ).loc main_arg0)) (m ((c : Thread nD τ).loc main_arg1))) := by
  rw [Cert.KernelIdeal.Value.flushed2]
  unfold out0_2
  rw [View.canon_unit_zero offset1]
  simp only [View.ld_unit_zero (S := S512x1024) offset2, View.ld_unit_zero (S := S1024x64) offset2]
  obtain ⟨-, -, -, -, e2⟩ := index_facts t
  funext y
  show k0_pay1 (iblk m c 0 t) (iblk m c 1 t) y
    = totals (m ((c : Thread nD τ).loc main_arg0)) (m ((c : Thread nD τ).loc main_arg1)) (((cfg0.win 2).blk t).view.emb y)
  rw [weight_block m c t]
  refine block_totals (m ((c : Thread nD τ).loc main_arg0)) (m ((c : Thread nD τ).loc main_arg1)) (iblk m c 0 t) t.val y
    (((cfg0.win 2).blk t).view.emb y) (fun p q h0 h1 => population_block m c t p q h0 h1) ?_
  show win0_2.index t 0 * 512 + 1 * (y 0).val = t.val * 512 + (y 0).val
  rw [e2]; omega

/-- An entry of the result is in point `t`'s block iff it lies in the block's range. -/
theorem mem_block (t : Fin cfg0.N) (i : S4096.Idx) :
    i ∈ ((cfg0.win 2).blk t).view.set ↔ ∀ a : Fin 1, win0_2.index t a * S512.size a ≤ (i a).val
      ∧ (i a).val < win0_2.index t a * S512.size a + S512.size a := by
  show i ∈ ((View.whole main_v0).slice (win0_2.rect t)).set ↔ _
  rw [View.set_slice_whole, Rect.mem_set_unit]
  exact Iff.rfl

/-- Every entry of the result lies in some point's block: entry `i` in that of the point with block `i / 512`. -/
theorem covered (i : S4096.Idx) :
    ∃ t : Fin cfg0.N, (cfg0.win 2).flush t = true ∧ i ∈ ((cfg0.win 2).blk t).view.set := by
  have hi : (i 0).val < 4096 := (i 0).isLt
  obtain ⟨t, ht⟩ := index_onto ⟨(i 0).val / 512, by omega⟩
  have ht' : win0_2.index t (0 : Fin 1) = (i 0).val / 512 := ht
  refine ⟨t, flush0_2 t, ?_⟩
  rw [mem_block]
  intro a
  match a with
  | ⟨0, _⟩ =>
    show win0_2.index t (0 : Fin 1) * 512 ≤ (i 0).val ∧ (i 0).val < win0_2.index t (0 : Fin 1) * 512 + 512
    rw [ht']; omega

/-- After the run the result array holds the totals of the argument arrays. -/
theorem final_totals (c : Dev nD) :
    (dats m 0 c).arrAt 2 cfg0.N
      = totals (m ((c : Thread nD τ).loc main_arg0)) (m ((c : Thread nD τ).loc main_arg1)) :=
  (dats m 0 c).arrAt_eq_of_cover 2 _ (fun t _ => flushed_totals m c t) covered

/-- The kernel's run, read: every weakly fair execution ends with the result array at the totals of the arguments as
    launched, and the arguments unchanged. -/
theorem kernel_run : θ_run defs (onTc (τ := τ) (main (F := Ideal))) ⟨m, fun _ => 0, ρ⟩ fun r => ∀ c : Dev nD,
      r.2.mem ((c : Thread nD τ).loc main_v0)
        = totals (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_totals m c), (h c).2⟩)
    (Cert.KernelIdeal.Value.run_blocks m ρ)

end Cert.Fitness

end
-- ==== Proof.ReferenceTotals.lean ====
/-
  The reference's result is the vector of row totals. Its program forms the whole product `X · W`, takes the
  maximum with a broadcast zero, and adds each row up from a zero initial value. Read at row `i`: the initial value
  is the real 0 and adds nothing; the summand at column `j` is the maximum of the product's entry `(i, j)` — the sum
  over `k` of `X[i, k] · W[k, j]` — and the zero word.
-/
import proofs.«164292_g76295799046172_cont_9to1_m_440_2_alg».proof.Proof.Gen.ReferenceIdeal.Read
import proofs.«164292_g76295799046172_cont_9to1_m_440_2_alg».proof.Proof.Fitness

noncomputable section

namespace Cert.Fitness

open Idealize.ShloMosaic Idealize.ShloMosaic.ValueIdx Cert.ReferenceIdeal Cert.ReferenceIdeal.Read

/-- The left operand's index for entry `(i, j)` of the product at contracted coordinate `k` is `(i, k)`. -/
theorem lidx_eq (i : S4096.Idx) (j : Fin 64) (k : Fin 1024) :
    lidx_main_v0 (idx_main_v2 i j) k = ix2 (i 0) k :=
  funext fun a => Fin.ext (by match a with | ⟨0, _⟩ => rfl | ⟨1, _⟩ => rfl)

/-- The right operand's is `(k, j)`. -/
theorem ridx_eq (i : S4096.Idx) (j : Fin 64) (k : Fin 1024) :
    ridx_main_v0 (idx_main_v2 i j) k = ix2 k j :=
  funext fun a => Fin.ext (by match a with | ⟨0, _⟩ => rfl | ⟨1, _⟩ => rfl)

/-- The reference's last stage, as a function of the two arguments, is the vector of row totals. -/
theorem reference_totals (X : FVec Ideal S4096x1024 .f32) (W : FVec Ideal S1024x64 .f32) :
    val_main_v2 (F := Ideal) X W = totals X W := by
  funext i
  rw [val_main_v2_apply, val_main_cst_apply, Ideal.ofBits_def, Ideal.ofBits_zero_f32, zero_add]
  unfold totals rowTotal
  refine Finset.sum_congr rfl fun j _ => ?_
  rw [val_main_v1_apply, val_main_v0_apply, val_main_call0_v0_apply, val_main_call0_cst_apply, Ideal.maximumf_def,
    Ideal.ofBits_def]
  refine congrArg (max · _) ?_
  exact Finset.sum_congr rfl fun k _ =>
    congrArg₂ (· * ·) (congrArg X (lidx_eq i j k)) (congrArg W (ridx_eq i j k))

end Cert.Fitness

end
-- ==== Proof.lean ====
/-
  The kernel computes, for each of the 4096 rows `x` of the population matrix, `Σ_j max((x · W)_j, 0)`: it streams the
  matrix in 8 blocks of 512 rows, multiplies each block by the resident weight matrix, cuts the product off below at zero
  and sums each row. The reference forms the whole product, applies the same cut-off and sums each row. On the extended
  reals both results are the vector `totals X W` of Proof/Fitness.lean:

    * the kernel's result array after the run is `totals` of the argument arrays (Proof/KernelTotals.lean, from the
      body's value at a row, Proof/BodyRow.lean, and the fact that the 8 blocks tile the result);
    * the reference's result is `totals` of its argument arrays (Proof/ReferenceTotals.lean);

  and the two programs start from the same arguments. No law that needs finiteness is used: a matrix product and a row
  sum are read as plain sums on both sides, in the same order, so the precondition is never opened. The idealization
  rewrote nothing in the kernel, so it has nothing to preserve. The three frames are the generated ones (the
  reference's is its generated run with the result dropped).
-/
import proofs.«164292_g76295799046172_cont_9to1_m_440_2_alg».proof.Defs
import proofs.«164292_g76295799046172_cont_9to1_m_440_2_alg».proof.Proof.Gen.Kernel
import proofs.«164292_g76295799046172_cont_9to1_m_440_2_alg».proof.Proof.Gen.Kernel.Skeleton
import proofs.«164292_g76295799046172_cont_9to1_m_440_2_alg».proof.Proof.Gen.Kernel.Launch
import proofs.«164292_g76295799046172_cont_9to1_m_440_2_alg».proof.Proof.Gen.Kernel.Points
import proofs.«164292_g76295799046172_cont_9to1_m_440_2_alg».proof.Proof.Gen.Kernel.Frame
import proofs.«164292_g76295799046172_cont_9to1_m_440_2_alg».proof.Proof.Gen.KernelIdeal
import proofs.«164292_g76295799046172_cont_9to1_m_440_2_alg».proof.Proof.Gen.KernelIdeal.Skeleton
import proofs.«164292_g76295799046172_cont_9to1_m_440_2_alg».proof.Proof.Gen.KernelIdeal.Launch
import proofs.«164292_g76295799046172_cont_9to1_m_440_2_alg».proof.Proof.Gen.KernelIdeal.Points
import proofs.«164292_g76295799046172_cont_9to1_m_440_2_alg».proof.Proof.Gen.KernelIdeal.Frame
import proofs.«164292_g76295799046172_cont_9to1_m_440_2_alg».proof.Proof.Gen.ReferenceIdeal
import proofs.«164292_g76295799046172_cont_9to1_m_440_2_alg».proof.Proof.Gen.Pre_finite_inputs
import proofs.«164292_g76295799046172_cont_9to1_m_440_2_alg».proof.Proof.Gen.KernelIdeal.Value
import proofs.«164292_g76295799046172_cont_9to1_m_440_2_alg».proof.Proof.Gen.ReferenceIdeal.Run
import proofs.«164292_g76295799046172_cont_9to1_m_440_2_alg».proof.Proof.Gen.ReferenceIdeal.Read
import proofs.«164292_g76295799046172_cont_9to1_m_440_2_alg».proof.Proof.KernelTotals
import proofs.«164292_g76295799046172_cont_9to1_m_440_2_alg».proof.Proof.ReferenceTotals
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference's frame: its run, with what it says of the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs, from memories that agree on the two arguments, end with the result array at the row totals of those
    arguments: the kernel by `kernel_run`, the reference by its generated run and `reference_totals`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Fitness.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Fitness.reference_totals, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
